-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x784 : Shape := ⟨2, ![64, 784]⟩
abbrev S_ : Shape := ⟨0, ![]⟩

class Facts : Prop where
  bcast_S_S64x784 : S_.BroadcastsInDim S64x784 (![] : Fin 0 → Fin S64x784.rank)
  reducesTo_S64x784_S_d0_1 : S64x784.ReducesTo [0, 1] S_
  h_S_ : 0 < S_.numel

variable [Facts]

def fn {F : FTy → Type} [FloatOps F] (main_arg0 : FVec F S64x784 .f32) : IVec S_ 1 :=
  let main_v0 : FVec F S64x784 .f32 := Host.absf main_arg0
  let main_cst : FVec F S_ .f32 := constant S_ .f32 0x7F800000#32
  let main_v1 : FVec F S64x784 .f32 := broadcastInDim S64x784 ![] bcast_S_S64x784 main_cst
  let main_v2 : IVec S64x784 1 := cmpf .olt main_v0 main_v1
  let main_c : IVec S_ 1 := constantI S_ 1 1#1
  let main_v3 : IVec S_ 1 := (fun x v => Host.reduce IntOp.andi x v reducesTo_S64x784_S_d0_1 h_S_) main_v2 main_c
  main_v3
-- ==== Kernel.lean ====
abbrev S64x784 : Shape := ⟨2, ![64, 784]⟩
abbrev S50176x1 : Shape := ⟨2, ![50176, 1]⟩
abbrev S50176x1000 : Shape := ⟨2, ![50176, 1000]⟩
abbrev S1792x1 : Shape := ⟨2, ![1792, 1]⟩
abbrev S1792x1000 : Shape := ⟨2, ![1792, 1000]⟩
abbrev S64x784x1000 : Shape := ⟨3, ![64, 784, 1000]⟩

abbrev nBuf : Space → Nat
  | .hbm => 4
  | .vmem => 4
  | .smem => 0
  | _ => 0

abbrev bufTy : (tb : Table) → Fin (tcTables nBuf tb) → BufTy
  | .hbm, ⟨0, _⟩ => ⟨S64x784, .f32⟩
  | .hbm, ⟨1, _⟩ => ⟨S50176x1, .f32⟩
  | .hbm, ⟨2, _⟩ => ⟨S50176x1000, .i32⟩
  | .hbm, ⟨3, _⟩ => ⟨S64x784x1000, .i32⟩
  | .local _ .vmem, ⟨0, _⟩ => ⟨S1792x1, .f32⟩
  | .local _ .vmem, ⟨1, _⟩ => ⟨S1792x1, .f32⟩
  | .local _ .vmem, ⟨2, _⟩ => ⟨S1792x1000, .i32⟩
  | .local _ .vmem, ⟨3, _⟩ => ⟨S1792x1000, .i32⟩
  | _, _ => ⟨S64x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1792x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x784_S50176x1 : S64x784.ShapeCasts S50176x1
  inb_S1792x1_S1792x1_0_0 : ∀ a, (![0, 0] : Fin 2 → Nat) a + S1792x1.size a ≤ S1792x1.size a
  h_S1792x1 : 0 < S1792x1.numel
  shapeCasts_S1792x1_S1792x1 : S1792x1.ShapeCasts S1792x1
  iota_S1792x1000_d1_w32 : S1792x1000.Iotas .tc 32 [1]
  broadcasts_S1792x1_S1792x1000 : S1792x1.Broadcasts S1792x1000
  natLt_1_32 : 1 < 32
  inb_S1792x1000_S1792x1000_0_0 : ∀ a, (![0, 0] : Fin 2 → Nat) a + S1792x1000.size a ≤ S1792x1000.size a
  h_S1792x1000 : 0 < S1792x1000.numel
  shapeCasts_S50176x1000_S64x784x1000 : S50176x1000.ShapeCasts S64x784x1000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x1.size a ≤ S50176x1.size a
  hwx0_0 : ∀ i : grid0.Coords, EltTy.bits .f32 = 32 ∨ (Rect.block (s := S50176x1) S1792x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x1000.size a ≤ S50176x1000.size a
  hwx0_1 : ∀ i : grid0.Coords, EltTy.bits .i32 = 32 ∨ (Rect.block (s := S50176x1000) S1792x1000.size (cc0_transform_1 i) (hinb0_1 i)).WholeWords (EltTy.packing .i32)

variable [Facts₀]

abbrev win0_0 : Pipeline.Window sig grid0 :=
  Pipeline.Window.ofSpec (Memref.whole main_v0) S1792x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1792x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x784 : Shape := ⟨2, ![64, 784]⟩
abbrev S50176 : Shape := ⟨1, ![50176]⟩
abbrev S_ : Shape := ⟨0, ![]⟩
abbrev S50176x1000 : Shape := ⟨2, ![50176, 1000]⟩
abbrev S50176x1 : Shape := ⟨2, ![50176, 1]⟩
abbrev S50176x2 : Shape := ⟨2, ![50176, 2]⟩
abbrev S64x784x1000 : Shape := ⟨3, ![64, 784, 1000]⟩

abbrev nBuf : Space → Nat
  | .hbm => 49
  | .vmem => 0
  | .smem => 0
  | _ => 0

abbrev bufTy : (tb : Table) → Fin (tcTables nBuf tb) → BufTy
  | .hbm, ⟨0, _⟩ => ⟨S64x784, .f32⟩
  | .hbm, ⟨1, _⟩ => ⟨S50176, .f32⟩
  | .hbm, ⟨2, _⟩ => ⟨S_, .f32⟩
  | .hbm, ⟨3, _⟩ => ⟨S50176, .f32⟩
  | .hbm, ⟨4, _⟩ => ⟨S50176, .i1⟩
  | .hbm, ⟨5, _⟩ => ⟨S_, .f32⟩
  | .hbm, ⟨6, _⟩ => ⟨S50176, .f32⟩
  | .hbm, ⟨7, _⟩ => ⟨S50176, .f32⟩
  | .hbm, ⟨8, _⟩ => ⟨S50176, .f32⟩
  | .hbm, ⟨9, _⟩ => ⟨S_, .f32⟩
  | .hbm, ⟨10, _⟩ => ⟨S_, .f32⟩
  | .hbm, ⟨11, _⟩ => ⟨S50176, .f32⟩
  | .hbm, ⟨12, _⟩ => ⟨S50176, .f32⟩
  | .hbm, ⟨13, _⟩ => ⟨S50176, .f32⟩
  | .hbm, ⟨14, _⟩ => ⟨S_, .f32⟩
  | .hbm, ⟨15, _⟩ => ⟨S50176, .f32⟩
  | .hbm, ⟨16, _⟩ => ⟨S50176, .f32⟩
  | .hbm, ⟨17, _⟩ => ⟨S_, .f32⟩
  | .hbm, ⟨18, _⟩ => ⟨S50176, .f32⟩
  | .hbm, ⟨19, _⟩ => ⟨S50176, .f32⟩
  | .hbm, ⟨20, _⟩ => ⟨S50176, .i32⟩
  | .hbm, ⟨21, _⟩ => ⟨S_, .i32⟩
  | .hbm, ⟨22, _⟩ => ⟨S_, .i32⟩
  | .hbm, ⟨23, _⟩ => ⟨S50176, .i32⟩
  | .hbm, ⟨24, _⟩ => ⟨S50176, .i32⟩
  | .hbm, ⟨25, _⟩ => ⟨S50176, .i32⟩
  | .hbm, ⟨26, _⟩ => ⟨S_, .i32⟩
  | .hbm, ⟨27, _⟩ => ⟨S50176x1000, .i32⟩
  | .hbm, ⟨28, _⟩ => ⟨S_, .i32⟩
  | .hbm, ⟨29, _⟩ => ⟨S50176, .i32⟩
  | .hbm, ⟨30, _⟩ => ⟨S_, .i32⟩
  | .hbm, ⟨31, _⟩ => ⟨S50176, .i32⟩
  | .hbm, ⟨32, _⟩ => ⟨S50176, .i1⟩
  | .hbm, ⟨33, _⟩ => ⟨S_, .i32⟩
  | .hbm, ⟨34, _⟩ => ⟨S50176, .i32⟩
  | .hbm, ⟨35, _⟩ => ⟨S50176, .i32⟩
  | .hbm, ⟨36, _⟩ => ⟨S50176, .i32⟩
  | .hbm, ⟨37, _⟩ => ⟨S_, .i32⟩
  | .hbm, ⟨38, _⟩ => ⟨S50176, .i32⟩
  | .hbm, ⟨39, _⟩ => ⟨S50176, .i1⟩
  | .hbm, ⟨40, _⟩ => ⟨S_, .i32⟩
  | .hbm, ⟨41, _⟩ => ⟨S50176, .i32⟩
  | .hbm, ⟨42, _⟩ => ⟨S50176, .i32⟩
  | .hbm, ⟨43, _⟩ => ⟨S50176, .i32⟩
  | .hbm, ⟨44, _⟩ => ⟨S50176x1, .i32⟩
  | .hbm, ⟨45, _⟩ => ⟨S50176x1, .i32⟩
  | .hbm, ⟨46, _⟩ => ⟨S50176x2, .i32⟩
  | .hbm, ⟨47, _⟩ => ⟨S50176x1000, .i32⟩
  | .hbm, ⟨48, _⟩ => ⟨S64x784x1000, .i32⟩
  | _, _ => ⟨S64x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_c_6 : Ref sig .tc := ⟨.hbm, 30, rfl⟩
abbrev main_v17 : Ref sig .tc := ⟨.hbm, 31, rfl⟩
abbrev main_v18 : Ref sig .tc := ⟨.hbm, 32, rfl⟩
abbrev main_c_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_8 : Ref sig .tc := ⟨.hbm, 37, rfl⟩
abbrev main_v22 : Ref sig .tc := ⟨.hbm, 38, rfl⟩
abbrev main_v23 : Ref sig .tc := ⟨.hbm, 39, rfl⟩
abbrev main_c_9 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  shapeCasts_S64x784_S50176 : S64x784.ShapeCasts S50176
  bcast_S_S50176 : S_.BroadcastsInDim S50176 (![] : Fin 0 → Fin S50176.rank)
  bcast_S_S50176x1000 : S_.BroadcastsInDim S50176x1000 (![] : Fin 0 → Fin S50176x1000.rank)
  bcast_S50176_S50176x1_0 : S50176.BroadcastsInDim S50176x1 (![0] : Fin 1 → Fin S50176x1.rank)
  concatenates_S50176x1_S50176x1_S50176x2_d1 : Shape.Concatenates [S50176x1, S50176x1] S50176x2 1
  shapeCasts_S50176x1000_S64x784x1000 : S50176x1000.ShapeCasts S64x784x1000
  scatter_S50176x1000_S50176x2_S50176_n_01_01_1_wf : ScatterDims.WF S50176x1000 S50176x2 S50176 [] [0, 1] [0, 1] 1

variable [Facts₀]

def scatter_S50176x1000_S50176x2_S50176_n_01_01_1 : ScatterDims S50176x1000 S50176x2 S50176 where
  updateWindowDims := []
  insertedWindowDims := [0, 1]
  scatterDimsToOperandDims := [0, 1]
  indexVectorDim := 1
  wf := scatter_S50176x1000_S50176x2_S50176_n_01_01_1_wf

class Facts : Prop extends Facts₀ where

variable [Facts]
-- ==== Proof.LibFiniteAll.lean ====
/-
  GENERAL LEMMA: a printed finiteness test read back, at the ideal values (no program is imported).

  A precondition "every entry of x is finite" is written `jnp.all(jnp.abs(x) < inf)` and prints as: the absolute value,
  a splat of the word of +∞, an ordered less-than, and a reduction by `and` over every axis from the constant 1. At the
  exact reading of the floats an entry is an extended real, and the test being 1 says it is neither infinity: it is a
  real number (`real_of_abs_lt_inf` for one value, `all_real` for an array of any shape).
-/
import Idealize.ShloMosaic.PureOps.Ideal
import Idealize.ShloMosaic.Lib.ValueIdx
import Idealize.ShloMosaic.Lib.ReduceAll
import Idealize.ShloMosaic.Lib.Pipeline.Value

noncomputable section

namespace Cert.FiniteAll

open Idealize.ShloMosaic Idealize.ShloMosaic.ValueIdx

/-- The scalar shape has one index. -/
instance : Subsingleton (⟨0, ![]⟩ : Shape).Idx := ⟨fun a b => funext fun d => d.elim0⟩

/-- One value: if |x| < +∞ tests true, x is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) ⊤ = 1#1 := by rw [← htop]; exact h
  unfold Ideal.cmp at h'
  by_cases hlt : max (x : EReal) (-(x : EReal)) < ⊤
  · rw [max_lt_iff] at hlt
    have h1 : (x : EReal) ≠ ⊤ := hlt.1.ne
    have h2 : (x : EReal) ≠ ⊥ := by
      intro hh
      rw [hh] at hlt
      simp at hlt
    exact ⟨(x : EReal).toReal, (EReal.coe_toReal h1 h2).symm⟩
  · exfalso
    simp [hlt] at h'

/-- An array: if `jnp.all(|x| < +∞)` is 1, every entry of x is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (h : Host.reduce IntOp.andi (cmpf .olt (Host.absf x) (broadcastInDim s ![] hb (constant (F := Ideal) ⟨0, ![]⟩ .f32 0x7F800000#32)))
          init hr hu ix0 = 1#1) (i : s.Idx) : ∃ r : ℝ, x i = (r : EReal) := by
  have e := Host.reduce_andi_all _ init hr hu ix0 h i
  refine real_of_abs_lt_inf (x i) ?_
  rw [cmpf_apply, broadcastInDim_apply _ hb _ i ix0 (fun a => a.elim0)] at e
  exact e

end Cert.FiniteAll

end
-- ==== Proof.Latency.lean ====
/-
  The spike latency of one intensity, and the raster it sets, at the exact reading of the floats (no program is
  imported).

  An intensity `v` above the threshold θ = f32(0.2) fires after `T(v) = trunc((t · log (v / (v − θ))) · N)` steps,
  t = f32(0.05), N = 1000, the truncation toward zero and clamped to the 32-bit signed range; an intensity at or below
  θ never fires, which the programs encode as the step `N` itself, one past the last column. `lat v` is that 32-bit word.
  The raster of a row of latencies has, in row `r` and column `n < N`, a one where `n` is the row's latency word and a
  zero elsewhere (`raster`).

  The fact that needs the intensity to be a REAL number (`lat_not_neg`): then `v > θ > 0` gives `v − θ > 0` and
  `v / (v − θ) ≥ 1`, so the logarithm is a nonnegative real, the product with the two positive constants is a
  nonnegative real, and its clamped truncation is a nonnegative integer below 2³¹: the latency word is never negative
  as a signed number. (At `v = +∞` the quotient is `∞ · 0` and nothing of the kind holds.)
-/
import Idealize.ShloMosaic.PureOps.Ideal
import Idealize.ShloMosaic.Lib.ValueIdx

noncomputable section

namespace Cert.Latency

open Idealize.ShloMosaic

/-! ## The three constants, as the reals their patterns denote -/

/-- The threshold's pattern denotes 13421773 · 2⁻²⁶ (the float nearest 0.2), a positive real. -/
theorem thr_eq : Ideal.ofBits .f32 0x3E4CCCCD#32 = ((13421773 / 67108864 : ℝ) : EReal) := by
  simp [Ideal.ofBits, Ideal.ieee, -EReal.coe_mul]; norm_num

/-- The time constant's pattern denotes 13421773 · 2⁻²⁸ (the float nearest 0.05), a positive real. -/
theorem teff_eq : Ideal.ofBits .f32 0x3D4CCCCD#32 = ((13421773 / 268435456 : ℝ) : EReal) := by
  simp [Ideal.ofBits, Ideal.ieee, -EReal.coe_mul]; norm_num

/-- The step count's pattern denotes the real 1000. -/
theorem steps_eq : Ideal.ofBits .f32 0x447A0000#32 = ((1000 : ℝ) : EReal) := by
  simp [Ideal.ofBits, Ideal.ieee, -EReal.coe_mul]; norm_num

/-! ## The latency word -/

/-- The latency word of an intensity `v`: `trunc((t · log (v / (v − θ))) · N)` when `v > θ` (the quotient replaced by
    1.0 under the logarithm otherwise, where the value is not used), the word `N = 1000` when not. -/
def lat (v : EReal) : BitVec 32 :=
  Scalar.select (Ideal.cmp .ogt v (Ideal.ofBits .f32 0x3E4CCCCD#32))
    (Ideal.fptosi 32
      (Ideal.ofBits .f32 0x3D4CCCCD#32
          * Ideal.log (Scalar.select (Ideal.cmp .ogt v (Ideal.ofBits .f32 0x3E4CCCCD#32))
              (Ideal.div v (v - Ideal.ofBits .f32 0x3E4CCCCD#32)) (Ideal.ofBits .f32 0x3F800000#32))
        * Ideal.ofBits .f32 0x447A0000#32))
    1000#32

/-- The clamped truncation of a nonnegative extended real to the 32-bit signed range is a nonnegative integer below
    2³¹. -/
theorem toIntClamped_nonneg (w : EReal) (hw : 0 ≤ w) :
    0 ≤ Ideal.toIntClamped (-(2 ^ (32 - 1) : Nat)) ((2 ^ (32 - 1) : Nat) - 1) w
      ∧ Ideal.toIntClamped (-(2 ^ (32 - 1) : Nat)) ((2 ^ (32 - 1) : Nat) - 1) w < 2 ^ (32 - 1) := by
  induction w using EReal.rec with
  | bot => exact absurd hw (by simp)
  | top => rw [Ideal.toIntClamped_top]; norm_num
  | coe r =>
    have hr : 0 ≤ r := by exact_mod_cast hw
    rw [Ideal.toIntClamped_coe, if_pos hr]
    have hf : 0 ≤ ⌊r⌋ := Int.floor_nonneg.2 hr
    constructor
    · exact le_max_of_le_right (le_min (by norm_num) hf)
    · exact max_lt (by norm_num) (lt_of_le_of_lt (min_le_left _ _) (by norm_num))

/-- A REAL intensity never has a negative latency word. -/
theorem lat_not_neg (r : ℝ) : (lat (r : EReal)).slt 0#32 = false := by
  unfold lat
  rw [thr_eq, teff_eq, steps_eq]
  by_cases hv : ((13421773 / 67108864 : ℝ) : EReal) < (r : EReal)
  · -- above the threshold: the truncation of a nonnegative real
    have hc : Ideal.cmp .ogt (r : EReal) ((13421773 / 67108864 : ℝ) : EReal) = 1#1 := by
      unfold Ideal.cmp; simp [hv]
    rw [hc, ValueIdx.select_one, ValueIdx.select_one]
    have hr : (13421773 / 67108864 : ℝ) < r := by exact_mod_cast hv
    have hd : 0 < r - 13421773 / 67108864 := by linarith
    have hsub : (r : EReal) - ((13421773 / 67108864 : ℝ) : EReal) = ((r - 13421773 / 67108864 : ℝ) : EReal) := by
      rw [EReal.coe_sub]
    have hdiv : Ideal.div (r : EReal) ((r - 13421773 / 67108864 : ℝ) : EReal)
        = ((r / (r - 13421773 / 67108864) : ℝ) : EReal) := by
      rw [Ideal.div_coe (ne_of_gt hd), ← EReal.coe_mul]; congr 1; ring
    have hq : 1 ≤ r / (r - 13421773 / 67108864) := by
      rw [le_div_iff₀ hd]; linarith
    have hlog : Ideal.log ((r / (r - 13421773 / 67108864) : ℝ) : EReal)
        = ((Real.log (r / (r - 13421773 / 67108864)) : ℝ) : EReal) := by
      rw [Ideal.log_coe, if_neg (by linarith)]
    rw [hsub, hdiv, hlog, ← EReal.coe_mul, ← EReal.coe_mul]
    have hw : (0 : EReal) ≤ ((13421773 / 268435456 * Real.log (r / (r - 13421773 / 67108864)) * 1000 : ℝ) : EReal) := by
      have := Real.log_nonneg hq
      exact_mod_cast (by positivity : (0 : ℝ) ≤ 13421773 / 268435456 * Real.log (r / (r - 13421773 / 67108864)) * 1000)
    obtain ⟨h0, h1⟩ := toIntClamped_nonneg _ hw
    unfold Ideal.fptosi
    rw [BitVec.slt_eq_decide, decide_eq_false_iff_not, not_lt,
      BitVec.toInt_ofInt_eq_self (by norm_num) (by linarith) h1]
    exact h0
  · -- at or below the threshold: the word 1000
    have hc : Ideal.cmp .ogt (r : EReal) ((13421773 / 67108864 : ℝ) : EReal) = 0#1 := by
      unfold Ideal.cmp; simp [hv]
    rw [hc, ValueIdx.select_zero]
    decide

/-! ## The raster -/

/-- One entry of the raster: a one where the column's number, as a 32-bit word, is the latency word. -/
def spike (T : BitVec 32) (n : Nat) : BitVec 32 := (IntOp.cmpi .eq (BitVec.ofNat 32 n) T).setWidth 32

/-- The raster of the latencies of 50176 intensities, one row of 1000 columns each. -/
def raster (xf : Fin 50176 → EReal) : (⟨2, ![50176, 1000]⟩ : Shape).Idx → BitVec 32 :=
  fun i => spike (lat (xf (i 0))) (i 1).val

end Cert.Latency

end
-- ==== Proof.KernelBlock.lean ====
/-
  One block of the kernel's raster, read at an index, at the exact reading of the floats.

  The body loads a column of 1792 intensities, computes each row's latency word, repeats it across the 1000 lanes and
  compares it with the lane's own number: the entry in row `a`, lane `n` of the block it stores is the raster's entry
  for the latency of the column's `a`-th intensity and column `n`. So if the column's `a`-th intensity is the whole
  array's entry for row `r`, the stored entry is the whole raster's entry at `(r, n)` (`block_entry`).
-/
import proofs.«176093_j11476152615371_2_alg».proof.Proof.Gen.KernelIdeal.Skeleton
import proofs.«176093_j11476152615371_2_alg».proof.Proof.Latency
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

/-- The lane counter of the block at lane `n` is the word `n`. -/
theorem lane_number (y : S1792x1000.Idx) :
    iota .tc S1792x1000 32 [1] iota_S1792x1000_d1_w32 y = BitVec.ofNat 32 (y 1).val := by
  unfold iota
  simp

/-- THE BLOCK'S ENTRY: the body's stored value at row `y 0`, lane `y 1`, is the raster's entry at array index `i`
    when the loaded column's row `y 0` is the flat input's row `i 0` and the lane is the column `i 1`. -/
theorem block_entry (X : Vec Ideal S1792x1 .f32) (A : S50176x1.Idx → EReal) (y : S1792x1000.Idx)
    (i : S50176x1000.Idx) (hA : X (ix2 (y 0) (0 : Fin 1)) = A (ix2 (i 0) (0 : Fin 1))) (h1 : (i 1).val = (y 1).val) :
    k0_pay1 (F := Ideal) X y = Cert.Latency.raster (fun r => A (ix2 r (0 : Fin 1))) i := by
  have hk : ∀ a : Fin S1792x1.rank, ((ix2 (y 0) (0 : Fin 1) : S1792x1.Idx) a).val
      = if S1792x1.size a = 1 then 0
        else (y ⟨a.val + (S1792x1000.rank - S1792x1.rank), by
          have := broadcasts_S1792x1_S1792x1000.1; have := a.isLt; omega⟩).val := fun a =>
    match a with
    | ⟨0, _⟩ => by show (y 0).val = if (1792 : Nat) = 1 then 0 else (y 0).val; rw [if_neg (by decide)]
    | ⟨1, _⟩ => by show (0 : Nat) = if (1 : Nat) = 1 then 0 else (y 1).val; rw [if_pos rfl]
  unfold k0_pay1 Cert.Latency.raster Cert.Latency.spike
  dsimp only
  rw [extui_apply]
  show (IntOp.cmpi .eq (iota .tc S1792x1000 32 [1] iota_S1792x1000_d1_w32 y)
      (broadcastTo S1792x1000 _ broadcasts_S1792x1_S1792x1000 y)).setWidth 32 = _
  rw [lane_number, broadcastTo_apply _ broadcasts_S1792x1_S1792x1000 y (ix2 (y 0) (0 : Fin 1)) hk, shapeCast_self,
    ← hA, h1]
  rfl

end Cert.KernelIdeal.Block

end
-- ==== Proof.KernelValue.lean ====
/-
  The kernel's result array, at the exact reading of the floats.

  The grid has 28 points; point `t` loads rows `1792·t … 1792·t + 1791` of the flat input (one column) and writes back
  the same rows of the raster (all 1000 columns). Each block it writes is the restriction of ONE function of the flat
  input to those rows — the raster of the rows' latencies (`wrote`) —, the 28 blocks tile the 50176 × 1000 array
  (`covered`), so after the run the array IS that raster (`array_eq`). The flat input is the host's reshape of the
  argument before the region (`flat_input`) and the program's result the host's reshape of the array after it
  (`result_eq`); `run` is the generated frame run re-posted with the result named.
-/
import proofs.«176093_j11476152615371_2_alg».proof.Proof.Gen.KernelIdeal.Frame
import proofs.«176093_j11476152615371_2_alg».proof.Proof.KernelBlock
import Idealize.ShloMosaic.Lib.Pipeline.Value
import Idealize.ShloMosaic.Lib.ValueIdx
import Idealize.ShloMosaic.Lib.StableHlo.Run

set_option maxRecDepth 16384

noncomputable section

namespace Cert.KernelIdeal.Raster

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

theorem origin : (![0, 0] : Fin 2 → Nat) = fun _ => 0 := funext fun a => by fin_cases a <;> rfl

/-- The two index maps over the grid: both windows sit at block row `t`'s own row index, block column 0, and the
    row index stays below 28. -/
theorem index_maps : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 27 :=
  (by decide +kernel : ∀ t : Fin grid0.N, _)

/-- Every block row is some point's. -/
theorem index_onto : ∀ q : Fin 28, ∃ t : Fin cfg0.N, win0_1.index t = ![q.val, 0] :=
  (by decide +kernel : ∀ q : Fin 28, ∃ t : Fin grid0.N, win0_1.index t = ![q.val, 0])

/-- WHAT POINT `t` WRITES BACK: rows `1792·t …` of the raster of the flat input's latencies. -/
theorem wrote (c : Dev nD) (t : Fin cfg0.N) :
    (dats (F := Ideal) m 0 c).flushed 1 t
      = ((cfg0.win 1).blk t).view.read (Elt Ideal) (Cert.Latency.raster (fun r => V m c main_v0 (ix2 r (0 : Fin 1)))) := by
  show (cfg0.win 1).cut (grid0.coords t) ((dats m 0 c).after 1 t) = _
  rw [after0_1]
  unfold out0_1
  rw [View.canon_unit_zero origin]
  simp only [View.ld_unit_zero (S := S1792x1) origin]
  obtain ⟨e0, e1, e2, e3⟩ := index_maps t
  funext y
  refine Cert.KernelIdeal.Block.block_entry (iblk m c 0 t) (V m c main_v0) y (((cfg0.win 1).blk t).view.emb y) ?_ ?_
  · -- the loaded column's row is the flat input's row 1792·t + (y 0)
    show V m c main_v0 (((cfg0.win 0).blk t).view.emb (ix2 (y 0) (0 : Fin 1))) = V m c main_v0 _
    congr 1
    funext a; apply Fin.ext
    match a with
    | ⟨0, _⟩ =>
      show win0_0.index t (0 : Fin 2) * 1792 + 1 * (y 0).val = win0_1.index t (0 : Fin 2) * 1792 + 1 * (y 0).val
      omega
    | ⟨1, _⟩ =>
      show win0_0.index t (1 : Fin 2) * 1 + 1 * 0 = 0
      omega
  · -- the lane is the column
    show win0_1.index t (1 : Fin 2) * 1000 + 1 * (y 1).val = (y 1).val
    omega

/-- An index of the array is in point `t`'s block iff each coordinate is in the block's range on its axis. -/
theorem mem_block (t : Fin cfg0.N) (i : S50176x1000.Idx) :
    i ∈ ((cfg0.win 1).blk t).view.set ↔ ∀ a : Fin 2, win0_1.index t a * S1792x1000.size a ≤ (i a).val
      ∧ (i a).val < win0_1.index t a * S1792x1000.size a + S1792x1000.size a := by
  show i ∈ ((View.whole main_v1).slice (win0_1.rect t)).set ↔ _
  rw [View.set_slice_whole, Rect.mem_set_unit]
  exact Iff.rfl

/-- THE 28 BLOCKS TILE THE ARRAY: row `r` is in the block of the point whose row index is `r / 1792`. -/
theorem covered (i : S50176x1000.Idx) :
    ∃ t : Fin cfg0.N, (cfg0.win 1).flush t = true ∧ i ∈ ((cfg0.win 1).blk t).view.set := by
  have hi0 : (i 0).val < 50176 := (i 0).isLt
  have hi1 : (i 1).val < 1000 := (i 1).isLt
  obtain ⟨t, ht⟩ := index_onto ⟨(i 0).val / 1792, by omega⟩
  have q0 : win0_1.index t (0 : Fin 2) = (i 0).val / 1792 := congrFun ht 0
  have q1 : win0_1.index t (1 : Fin 2) = 0 := congrFun ht 1
  refine ⟨t, flush0_1 t, ?_⟩
  rw [mem_block]
  intro a
  match a with
  | ⟨0, _⟩ =>
    show win0_1.index t (0 : Fin 2) * 1792 ≤ (i 0).val ∧ (i 0).val < win0_1.index t (0 : Fin 2) * 1792 + 1792
    omega
  | ⟨1, _⟩ =>
    show win0_1.index t (1 : Fin 2) * 1000 ≤ (i 1).val ∧ (i 1).val < win0_1.index t (1 : Fin 2) * 1000 + 1000
    omega

/-- THE ARRAY after the run is the raster of the flat input's latencies. -/
theorem array_eq (c : Dev nD) :
    (dats (F := Ideal) m 0 c).arrAt 1 cfg0.N = Cert.Latency.raster (fun r => V m c main_v0 (ix2 r (0 : Fin 1))) :=
  (dats m 0 c).arrAt_eq_of_cover 1 _ (fun t _ => wrote m c t) covered

/-- The flat input the region finds is the host's reshape of the argument to one column. -/
theorem flat_input (c : Dev nD) :
    (V m c main_v0 : S50176x1.Idx → EReal)
      = shapeCast S50176x1 (m ((c : Thread nD τ).loc main_arg0)) shapeCasts_S64x784_S50176x1 := by
  show StableHlo.after hostOps0 (fun b => m (c, b)) (Proc.devRef .tc main_v0) = _
  after_results
  rfl

/-- The program's result is the host's reshape of the array the region leaves. -/
theorem result_eq (c : Dev nD) :
    Pipeline.afterTail₀ cfgs (dats (F := Ideal) m) 0 (V0 m) [hostOps1] c main_v2
      = shapeCast S64x784x1000 ((dats (F := Ideal) m 0 c).arrAt 1 cfg0.N) shapeCasts_S50176x1000_S64x784x1000 := by
  unfold Pipeline.afterTail₀
  show StableHlo.after hostOps1 _ (Proc.devRef .tc main_v2) = _
  after_results
  rw [Pipeline.withArrays_arr spec0 launch0.win.arr_inj c _ _ 1]
  rfl

/-- THE RUN, READ: every weakly fair execution ends with the result at the reshaped raster of the reshaped argument,
    the argument unchanged. -/
theorem run : θ_run defs (onTc (τ := τ) (main (F := Ideal))) ⟨m, fun _ => 0, ρ⟩ fun r => ∀ c : Dev nD,
      r.2.mem ((c : Thread nD τ).loc main_v2)
        = shapeCast S64x784x1000
            (Cert.Latency.raster (fun r => shapeCast S50176x1 (m ((c : Thread nD τ).loc main_arg0))
              shapeCasts_S64x784_S50176x1 (ix2 r (0 : Fin 1))))
            shapeCasts_S50176x1000_S64x784x1000
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans
          ((result_eq m c).trans (by rw [array_eq, flat_input])),
        ((h c).2 main_arg0 (Pipeline.mem_restRefs_of main_arg0 (by decide) (by decide))).trans (W_main_arg0 m (dats m) c)⟩)
    (run_main m ρ)

end Cert.KernelIdeal.Raster

end
-- ==== Proof.LibScatterOne.lean ====
/-
  GENERAL LEMMA: a host scatter read at ONE index of its operand (no program is imported).

  The host's scatter walks the update indices in row-major order; an update whose result index lies inside the operand
  replaces the element there by the body applied to that element and the update's value, every other update is
  dropped. Read at one operand index `i`, only the updates that LAND at `i` matter: the element there is the left fold
  of the body over those updates, starting from the operand's own element (`scatter_apply`), whatever the body, the
  dimension numbers and the shapes. When at most one update index `k` can land at `i` — the result indices of distinct
  updates are distinct, as when one coordinate of the index vector is the update's own number — the fold has at most
  one step: the element is the body of the operand's element and update `k`'s value if `k` lands at `i`, and the
  operand's element otherwise (`scatter_apply_of_unique`).
-/
import Idealize.ShloMosaic.PureOps

noncomputable section

namespace Cert.ScatterOne

open Idealize.ShloMosaic

/-- A left fold whose step changes the accumulator only at elements satisfying `P`, over a list none of whose
    elements satisfies `P`, returns the start. -/
theorem foldl_ite_of_forall_not {β γ : Type} (P : β → Prop) [DecidablePred P] (g : γ → β → γ) :
    ∀ (L : List β), (∀ j ∈ L, ¬ P j) → ∀ a : γ, L.foldl (fun acc j => if P j then g acc j else acc) a = a := by
  intro L
  induction L with
  | nil => intro _ a; rfl
  | cons j L ih =>
    intro h a
    rw [List.foldl_cons, if_neg (h j (List.mem_cons_self ..))]
    exact ih (fun j' hj' => h j' (List.mem_cons_of_mem _ hj')) a

/-- The same fold over a list without repetitions in which `k` occurs and is the only element that can satisfy `P`:
    one step at `k` if `P k`, none otherwise. -/
theorem foldl_ite_of_unique {β γ : Type} (P : β → Prop) [DecidablePred P] (g : γ → β → γ) (k : β) :
    ∀ (L : List β), L.Nodup → k ∈ L → (∀ j ∈ L, P j → j = k) → ∀ a : γ,
      L.foldl (fun acc j => if P j then g acc j else acc) a = if P k then g a k else a := by
  intro L
  induction L with
  | nil => intro _ hk; exact absurd hk (List.not_mem_nil)
  | cons j L ih =>
    intro hnd hk huniq a
    obtain ⟨hjL, hndL⟩ := List.nodup_cons.1 hnd
    rw [List.foldl_cons]
    rcases List.mem_cons.1 hk with hkj | hkL
    · -- `k` is the head: nothing in the tail satisfies `P`, it would be `k` again
      subst hkj
      have htail : ∀ j' ∈ L, ¬ P j' := fun j' hj' hP =>
        hjL ((huniq j' (List.mem_cons_of_mem _ hj') hP) ▸ hj')
      exact foldl_ite_of_forall_not P g L htail _
    · -- `k` is in the tail: the head is not `k`, so it does not satisfy `P`
      have hj : ¬ P j := fun hP => hjL ((huniq j (List.mem_cons_self ..) hP).symm ▸ hkL)
      rw [if_neg hj]
      exact ih hndL hkL (fun j' hj' => huniq j' (List.mem_cons_of_mem _ hj')) a

variable {α : Type} {w : Nat} {s si u : Shape}

/-- THE SCATTER AT ONE INDEX: the operand's element there, folded with the body over the updates whose result index
    is that index, in row-major order of the updates. -/
theorem scatter_apply (d : ScatterDims s si u) (f : α → α → α) (x : s.Idx → α) (idx : IVec si w) (upd : u.Idx → α)
    (i : s.Idx) :
    Host.scatter d f x idx upd i
      = (List.finRange u.numel).foldl (fun acc n =>
          if d.resultIdx? (u.rowMajor.symm n) idx = some i then f acc (upd (u.rowMajor.symm n)) else acc) (x i) := by
  unfold Host.scatter
  generalize List.finRange u.numel = L
  induction L generalizing x with
  | nil => rfl
  | cons n L ih =>
    rw [List.foldl_cons, List.foldl_cons, ih]
    congr 1
    generalize d.resultIdx? (u.rowMajor.symm n) idx = o
    cases o with
    | none =>
      show x i = _
      rw [if_neg (by simp)]
    | some i₀ =>
      show (if i = i₀ then f (x i₀) (upd (u.rowMajor.symm n)) else x i) = _
      by_cases hi : i = i₀
      · subst hi; rw [if_pos rfl, if_pos rfl]
      · rw [if_neg hi, if_neg (fun h' => hi (Option.some.inj h').symm)]

/-- AT MOST ONE UPDATE LANDS: if `k` is the only update index whose result index can be `i`, the element at `i` is
    the body of the operand's element and update `k`'s value when `k` lands there, the operand's element when not. -/
theorem scatter_apply_of_unique (d : ScatterDims s si u) (f : α → α → α) (x : s.Idx → α) (idx : IVec si w)
    (upd : u.Idx → α) (i : s.Idx) (k : u.Idx) (huniq : ∀ j : u.Idx, d.resultIdx? j idx = some i → j = k) :
    Host.scatter d f x idx upd i = if d.resultIdx? k idx = some i then f (x i) (upd k) else x i := by
  rw [scatter_apply]
  have h := foldl_ite_of_unique (fun n : Fin u.numel => d.resultIdx? (u.rowMajor.symm n) idx = some i)
    (fun acc n => f acc (upd (u.rowMajor.symm n))) (u.rowMajor k) (List.finRange u.numel) (List.nodup_finRange _)
    (List.mem_finRange _) (fun n _ hn => by
      have := huniq _ hn
      rw [← this, Equiv.apply_symm_apply]) (x i)
  rw [h, Equiv.symm_apply_apply]

end Cert.ScatterOne

end
-- ==== Proof.RefTable.lean ====
/-
  The reference's scatter indices, at the exact reading of the floats.

  The reference scatters update `e` (one per flat row) at the index pair (row, column) it reads from a two-column
  table: column 0 holds the row's own number `e`, column 1 the row's latency word, each first passed through the
  wrap "add the extent if negative". Neither wrap fires: a row number below 50176 is not negative as a signed 32-bit
  word, and a REAL intensity's latency word is never negative. So the table's row `e` is the pair
  (`e`, latency of intensity `e`) (`row_index`, `col_index`).
-/
import proofs.«176093_j11476152615371_2_alg».proof.Proof.Gen.ReferenceIdeal.Read
import proofs.«176093_j11476152615371_2_alg».proof.Proof.Latency
import Idealize.ShloMosaic.Lib.Pipeline.Value
import Idealize.ShloMosaic.Lib.ValueIdx

noncomputable section

namespace Cert.ReferenceIdeal.Table

open Cert.ReferenceIdeal Cert.ReferenceIdeal.Gen Cert.ReferenceIdeal.Read Idealize.ShloMosaic Idealize.ShloMosaic.ValueIdx

/-- A number below 2³¹, as a 32-bit word read signed, is itself. -/
theorem toInt_ofNat_small (e : Nat) (h : e < 2 ^ 31) : (BitVec.ofNat 32 e).toInt = (e : Int) := by
  rw [← BitVec.ofInt_natCast]
  exact BitVec.toInt_ofInt_eq_self (by norm_num) (by omega) (by exact_mod_cast h)

/-- The flat row `e` of the argument: row `e / 784`, column `e % 784`. -/
abbrev unflat (e : Fin 50176) : S64x784.Idx := idx_main_v0 (ix1 e)

/-- Intensity `e`'s latency word, as the reference computes it. -/
theorem latency_word (x0 : (⟨S64x784, .f32⟩ : BufTy).Contents (Elt Ideal)) (e : Fin 50176) :
    val_main_v13 (F := Ideal) x0 (ix1 e) = Cert.Latency.lat (x0 (unflat e)) := by
  simp only [val_main_v13_apply, val_main_v2_apply, val_main_v12_apply, val_main_v11_apply, val_main_v9_apply,
    val_main_v7_apply, val_main_v6_apply, val_main_v5_apply, val_main_v4_apply, val_main_v0_apply, val_main_v1_apply,
    val_main_v3_apply, val_main_v8_apply, val_main_v10_apply, val_main_call0_v1_apply, val_main_call0_v0_apply,
    val_main_call1_v1_apply, val_main_call1_v0_apply, val_main_cst_apply, val_main_cst_0_apply, val_main_cst_1_apply,
    val_main_cst_2_apply, val_main_cst_3_apply, val_main_c_apply]
  rfl

/-- COLUMN 0 of the table at row `e` is the word `e`. -/
theorem row_index (x0 : (⟨S64x784, .f32⟩ : BufTy).Contents (Elt Ideal)) (e : Fin 50176) :
    val_main_v29 (F := Ideal) x0 (ix2 e (0 : Fin 2)) = BitVec.ofNat 32 e.val := by
  unfold val_main_v29
  rw [concatenate_pair_apply_left (s₁ := S50176x1) (s₂ := S50176x1) (1 : Fin 2) _ _ concatenates_S50176x1_S50176x1_S50176x2_d1 (ix2 e (0 : Fin 2)) rfl
    (ix2 e (0 : Fin 1)) (fun b => match b with | ⟨0, _⟩ => rfl | ⟨1, _⟩ => rfl)]
  rw [val_main_v27_apply,
    show idx_main_v27 (ix2 e (0 : Fin 1)) = ix1 e from funext fun a => match a with | ⟨0, _⟩ => rfl]
  simp only [val_main_v21_apply, val_main_v18_apply, val_main_v14_apply, val_main_v17_apply, val_main_c_6_apply]
  have he : e.val < 50176 := e.isLt
  have hneg : IntOp.cmpi .slt (BitVec.ofNat 32 e.val) (0#32) = 0#1 := by
    show BitVec.ofBool ((BitVec.ofNat 32 e.val).slt 0#32) = 0#1
    rw [BitVec.slt_eq_decide, toInt_ofNat_small e.val (by omega)]
    have h0 : ¬ ((e.val : Int) < (0#32 : BitVec 32).toInt) := by
      rw [show (0#32 : BitVec 32).toInt = 0 from rfl]; omega
    rw [decide_eq_false h0]
    rfl
  show Scalar.select (IntOp.cmpi .slt (BitVec.ofNat 32 e.val) (0#32)) _ (BitVec.ofNat 32 e.val) = _
  rw [hneg, select_zero]

/-- COLUMN 1 of the table at row `e` is intensity `e`'s latency word, when that intensity is a real number. -/
theorem col_index (x0 : (⟨S64x784, .f32⟩ : BufTy).Contents (Elt Ideal)) (e : Fin 50176)
    (hreal : ∃ r : ℝ, x0 (unflat e) = (r : EReal)) :
    val_main_v29 (F := Ideal) x0 (ix2 e (1 : Fin 2)) = Cert.Latency.lat (x0 (unflat e)) := by
  unfold val_main_v29
  rw [concatenate_pair_apply_right (s₁ := S50176x1) (s₂ := S50176x1) (1 : Fin 2) _ _ concatenates_S50176x1_S50176x1_S50176x2_d1 (ix2 e (1 : Fin 2)) rfl rfl
    (ix2 e (0 : Fin 1)) (fun b hb => match b with | ⟨0, _⟩ => rfl | ⟨1, _⟩ => absurd rfl hb) rfl]
  rw [val_main_v28_apply,
    show idx_main_v28 (ix2 e (0 : Fin 1)) = ix1 e from funext fun a => match a with | ⟨0, _⟩ => rfl]
  rw [val_main_v26_apply, val_main_v23_apply, val_main_v25_apply, latency_word]
  obtain ⟨r, hr⟩ := hreal
  have hneg : IntOp.cmpi .slt (Cert.Latency.lat (x0 (unflat e))) (val_main_v22 (F := Ideal) (ix1 e)) = 0#1 := by
    rw [val_main_v22_apply, val_main_c_8_apply, hr]
    show BitVec.ofBool ((Cert.Latency.lat (r : EReal)).slt 0#32) = 0#1
    rw [Cert.Latency.lat_not_neg]
    rfl
  rw [hneg, select_zero]

end Cert.ReferenceIdeal.Table

end
-- ==== Proof.RefScatter.lean ====
/-
  The reference's raster, at the exact reading of the floats.

  The reference starts from a 50176 × 1000 array of zeros and adds the word 1, once per flat row `e`, at the index
  pair (row, column) the two-column table gives it, dropping an update whose pair lies outside the array. The pair's
  row is the update's own number, so the only update that can land in row `r` is update `r`, and it lands at column
  `n` exactly when row `r`'s latency word, read signed, is `n` (`lands_iff`). Hence the entry at `(r, n)` is `0 + 1`
  when the latency word is `n` and `0` otherwise — the raster of the latencies (`scattered`), every intensity being
  a real number.
-/
import proofs.«176093_j11476152615371_2_alg».proof.Proof.Gen.ReferenceIdeal.Read
import proofs.«176093_j11476152615371_2_alg».proof.Proof.Latency
import proofs.«176093_j11476152615371_2_alg».proof.Proof.LibScatterOne
import proofs.«176093_j11476152615371_2_alg».proof.Proof.RefTable
import Idealize.ShloMosaic.Lib.Pipeline.Value
import Idealize.ShloMosaic.Lib.ValueIdx

noncomputable section

namespace Cert.ReferenceIdeal.Scattered

open Cert.ReferenceIdeal Cert.ReferenceIdeal.Gen Cert.ReferenceIdeal.Read Cert.ReferenceIdeal.Table
open Idealize.ShloMosaic Idealize.ShloMosaic.ValueIdx

/-- The scatter's dimension numbers: scalar updates, both operand axes inserted, the index vector along axis 1. -/
abbrev dims : ScatterDims S50176x1000 S50176x2 S50176 := scatter_S50176x1000_S50176x2_S50176_n_01_01_1

/-- Update `e` reads its start on the row axis signed off the table's row `e`, column 0, -/
theorem start_row (e : Fin 50176) (idx : IVec S50176x2 32) :
    dims.start (ix1 e) idx (0 : Fin 2) = (idx (ix2 e (0 : Fin 2))).toInt := by
  unfold ScatterDims.start
  rw [dif_pos (by decide)]
  refine congrArg BitVec.toInt (congrArg idx (funext fun b => Fin.ext ?_))
  match b with
  | ⟨0, _⟩ => rfl
  | ⟨1, _⟩ => rfl

/-- and on the column axis off column 1. -/
theorem start_col (e : Fin 50176) (idx : IVec S50176x2 32) :
    dims.start (ix1 e) idx (1 : Fin 2) = (idx (ix2 e (1 : Fin 2))).toInt := by
  unfold ScatterDims.start
  rw [dif_pos (by decide)]
  refine congrArg BitVec.toInt (congrArg idx (funext fun b => Fin.ext ?_))
  match b with
  | ⟨0, _⟩ => rfl
  | ⟨1, _⟩ => rfl

/-- Both operand axes are inserted: none is kept for a window. -/
theorem kept_none : dims.sKept = [] := by decide

/-- A scalar update has no window coordinate. -/
theorem window_eq (j : S50176.Idx) (a : Fin 2) : dims.window j a = 0 := by
  unfold ScatterDims.window
  rw [dif_neg (by rw [kept_none]; exact List.not_mem_nil)]

/-- WHERE AN UPDATE LANDS: update `e` lands at row `r`, column `n` iff the table's row `e` is the pair (`r`, `n`),
    read signed. -/
theorem lands_iff (e : Fin 50176) (idx : IVec S50176x2 32) (r : Fin 50176) (n : Fin 1000) :
    dims.resultIdx? (ix1 e) idx = some (ix2 r n) ↔
      (idx (ix2 e (0 : Fin 2))).toInt = (r.val : Int) ∧ (idx (ix2 e (1 : Fin 2))).toInt = (n.val : Int) := by
  have hr : r.val < 50176 := r.isLt
  have hn : n.val < 1000 := n.isLt
  have hall : (∀ a, 0 ≤ dims.start (ix1 e) idx a + dims.window (ix1 e) a
        ∧ dims.start (ix1 e) idx a + dims.window (ix1 e) a < S50176x1000.size a)
      ↔ (0 ≤ (idx (ix2 e (0 : Fin 2))).toInt ∧ (idx (ix2 e (0 : Fin 2))).toInt < 50176)
        ∧ (0 ≤ (idx (ix2 e (1 : Fin 2))).toInt ∧ (idx (ix2 e (1 : Fin 2))).toInt < 1000) := by
    rw [Fin.forall_fin_two, start_row, start_col, window_eq, window_eq]
    show (0 ≤ (idx (ix2 e (0 : Fin 2))).toInt + ((0 : Nat) : Int) ∧ (idx (ix2 e (0 : Fin 2))).toInt + ((0 : Nat) : Int) < ((50176 : Nat) : Int))
      ∧ (0 ≤ (idx (ix2 e (1 : Fin 2))).toInt + ((0 : Nat) : Int) ∧ (idx (ix2 e (1 : Fin 2))).toInt + ((0 : Nat) : Int) < ((1000 : Nat) : Int)) ↔ _
    omega
  unfold ScatterDims.resultIdx?
  constructor
  · intro hsome
    by_cases h : ∀ a, 0 ≤ dims.start (ix1 e) idx a + dims.window (ix1 e) a
        ∧ dims.start (ix1 e) idx a + dims.window (ix1 e) a < S50176x1000.size a
    · rw [dif_pos h] at hsome
      have hf := Option.some.inj hsome
      have h0 : (dims.start (ix1 e) idx 0 + dims.window (ix1 e) 0).toNat = r.val :=
        congrArg (fun f : S50176x1000.Idx => (f 0).val) hf
      have h1 : (dims.start (ix1 e) idx 1 + dims.window (ix1 e) 1).toNat = n.val :=
        congrArg (fun f : S50176x1000.Idx => (f 1).val) hf
      obtain ⟨⟨b0, _⟩, ⟨b1, _⟩⟩ := hall.1 h
      rw [start_row, window_eq] at h0
      rw [start_col, window_eq] at h1
      constructor <;> omega
    · rw [dif_neg h] at hsome
      exact absurd hsome (by simp)
  · rintro ⟨e0, e1⟩
    have h : ∀ a, 0 ≤ dims.start (ix1 e) idx a + dims.window (ix1 e) a
        ∧ dims.start (ix1 e) idx a + dims.window (ix1 e) a < S50176x1000.size a :=
      hall.2 ⟨⟨by omega, by omega⟩, ⟨by omega, by omega⟩⟩
    rw [dif_pos h]
    congr 1
    funext a
    apply Fin.ext
    match a with
    | ⟨0, _⟩ =>
      show (dims.start (ix1 e) idx 0 + dims.window (ix1 e) 0).toNat = r.val
      rw [start_row, window_eq, e0]; omega
    | ⟨1, _⟩ =>
      show (dims.start (ix1 e) idx 1 + dims.window (ix1 e) 1).toNat = n.val
      rw [start_col, window_eq, e1]; omega

/-- A 32-bit word read signed is the number `n < 2³¹` iff it is the word `n`. -/
theorem toInt_eq_iff (T : BitVec 32) (n : Nat) (hn : n < 2 ^ 31) : T.toInt = (n : Int) ↔ BitVec.ofNat 32 n = T := by
  constructor
  · intro h
    rw [← BitVec.ofInt_toInt (x := T), h, BitVec.ofInt_natCast]
  · intro h
    rw [← h]
    exact toInt_ofNat_small n hn

/-- One entry of the reference's array: row `r`, column `n` holds the raster's entry for row `r`'s latency. -/
theorem scattered_entry (x0 : (⟨S64x784, .f32⟩ : BufTy).Contents (Elt Ideal)) (hreal : ∀ i, ∃ r : ℝ, x0 i = (r : EReal))
    (r : Fin 50176) (n : Fin 1000) :
    val_main_v30 (F := Ideal) x0 (ix2 r n) = Cert.Latency.spike (Cert.Latency.lat (x0 (unflat r))) n.val := by
  have hr : r.val < 50176 := r.isLt
  have hn : n.val < 1000 := n.isLt
  unfold val_main_v30
  -- only update `r` can land in row `r`
  have huniq : ∀ j : S50176.Idx, dims.resultIdx? j (val_main_v29 (F := Ideal) x0) = some (ix2 r n) → j = ix1 r := by
    intro j hj
    obtain ⟨e, rfl⟩ : ∃ e : Fin 50176, j = ix1 e := ⟨j 0, eq_ix1 j⟩
    have he : e.val < 50176 := e.isLt
    have hrow := ((lands_iff e _ r n).1 hj).1
    rw [row_index, toInt_ofNat_small _ (by omega)] at hrow
    have : e = r := Fin.ext (by exact_mod_cast hrow)
    rw [this]
  rw [show scatter_S50176x1000_S50176x2_S50176_n_01_01_1 = dims from rfl,
    Cert.ScatterOne.scatter_apply_of_unique dims IntOp.addi _ _ _ (ix2 r n) (ix1 r) huniq]
  rw [val_main_v15_apply, val_main_c_4_apply, val_main_v16_apply, val_main_c_5_apply]
  -- it lands at column `n` iff the latency word is `n`
  have hland : dims.resultIdx? (ix1 r) (val_main_v29 (F := Ideal) x0) = some (ix2 r n)
      ↔ BitVec.ofNat 32 n.val = Cert.Latency.lat (x0 (unflat r)) := by
    rw [lands_iff, row_index, col_index x0 r (hreal _), toInt_ofNat_small _ (by omega), toInt_eq_iff _ _ (by omega)]
    exact and_iff_right rfl
  unfold Cert.Latency.spike
  show _ = (BitVec.ofBool (BitVec.ofNat 32 n.val == Cert.Latency.lat (x0 (unflat r)))).setWidth 32
  by_cases hw : BitVec.ofNat 32 n.val = Cert.Latency.lat (x0 (unflat r))
  · rw [if_pos (hland.2 hw), hw]
    simp [IntOp.addi]
  · rw [if_neg (fun h => hw (hland.1 h))]
    have : (BitVec.ofNat 32 n.val == Cert.Latency.lat (x0 (unflat r))) = false := by
      simpa using hw
    rw [this]
    rfl

/-- THE REFERENCE'S ARRAY before its last reshape is the raster of the latencies of the flat rows of the argument. -/
theorem scattered (x0 : (⟨S64x784, .f32⟩ : BufTy).Contents (Elt Ideal)) (hreal : ∀ i, ∃ r : ℝ, x0 i = (r : EReal)) :
    val_main_v30 (F := Ideal) x0 = Cert.Latency.raster (fun r => x0 (unflat r)) := by
  funext i
  obtain ⟨r, n, rfl⟩ : ∃ (r : Fin 50176) (n : Fin 1000), i = ix2 r n := ⟨i 0, i 1, eq_ix2 i⟩
  exact scattered_entry x0 hreal r n

end Cert.ReferenceIdeal.Scattered

end
-- ==== Proof.lean ====
/-
  Intensity to spike latency: the kernel's one-hot compare against the reference's scatter-add, over the extended reals.

  Both programs flatten the 64 × 784 intensities to 50176 rows and give each row the same latency word
  `T = trunc((0.05f · log (v / (v − 0.2f))) · 1000)` when `v > 0.2f` and the word 1000 otherwise — the same operations on
  the same constants in the same order (Proof/Latency.lean). The kernel then writes, 1792 rows at a time, a 1 in column
  `n < 1000` of row `r` where the lane number `n` IS row `r`'s latency word, and 0 elsewhere (Proof/KernelBlock.lean,
  Proof/KernelValue.lean). The reference adds a 1 into a zero array at (row, latency) for every row, after wrapping a
  negative index by the axis extent and dropping a pair outside the array (Proof/RefTable.lean, Proof/RefScatter.lean).
  The two arrays are equal because a real intensity's latency word is never negative, so the wrap never fires, and
  because distinct rows write distinct places, so the accumulated sum at a place is one term at most. Finiteness of the
  input is used exactly there: the precondition makes every intensity a real number (Proof/LibFiniteAll.lean). Both
  programs end with the same reshape of the 50176 × 1000 raster to 64 × 784 × 1000.

  The three frames are the generated ones; the idealization rewrote nothing, so `preserves` is trivial.
-/
import proofs.«176093_j11476152615371_2_alg».proof.Defs
import proofs.«176093_j11476152615371_2_alg».proof.Proof.Gen.Kernel
import proofs.«176093_j11476152615371_2_alg».proof.Proof.Gen.Kernel.Skeleton
import proofs.«176093_j11476152615371_2_alg».proof.Proof.Gen.Kernel.Launch
import proofs.«176093_j11476152615371_2_alg».proof.Proof.Gen.Kernel.Points
import proofs.«176093_j11476152615371_2_alg».proof.Proof.Gen.Kernel.Frame
import proofs.«176093_j11476152615371_2_alg».proof.Proof.Gen.KernelIdeal
import proofs.«176093_j11476152615371_2_alg».proof.Proof.Gen.KernelIdeal.Skeleton
import proofs.«176093_j11476152615371_2_alg».proof.Proof.Gen.KernelIdeal.Launch
import proofs.«176093_j11476152615371_2_alg».proof.Proof.Gen.KernelIdeal.Points
import proofs.«176093_j11476152615371_2_alg».proof.Proof.Gen.KernelIdeal.Frame
import proofs.«176093_j11476152615371_2_alg».proof.Proof.Gen.ReferenceIdeal
import proofs.«176093_j11476152615371_2_alg».proof.Proof.Gen.Pre_finite_inputs
import proofs.«176093_j11476152615371_2_alg».proof.Proof.Gen.ReferenceIdeal.Run
import proofs.«176093_j11476152615371_2_alg».proof.Proof.Gen.ReferenceIdeal.Read
import proofs.«176093_j11476152615371_2_alg».proof.Proof.LibFiniteAll
import proofs.«176093_j11476152615371_2_alg».proof.Proof.KernelValue
import proofs.«176093_j11476152615371_2_alg».proof.Proof.RefScatter
import Idealize.ShloMosaic.Adequacy
import Idealize.ShloMosaic.Init

noncomputable section

namespace Cert.Proof

open Idealize.ShloMosaic Idealize.ShloMosaic.TcCoe Idealize.ShloMosaic.ValueIdx Idealize.SL.Sem

/-- Under the precondition every intensity is a real number. -/
theorem real_of_pre [Cert.Pre_finite_inputs.Facts] (x : FVec Ideal Cert.Pre_finite_inputs.S64x784 .f32)
    (h : Cert.Pre_finite_inputs.fn (F := Ideal) x = fun _ => 1#1) (i : Cert.Pre_finite_inputs.S64x784.Idx) :
    ∃ r : ℝ, x i = (r : EReal) := by
  have h0 := congrFun h ix0
  unfold Cert.Pre_finite_inputs.fn at h0
  dsimp only at h0
  exact Cert.FiniteAll.all_real x Cert.Pre_finite_inputs.Facts.bcast_S_S64x784
    Cert.Pre_finite_inputs.Facts.reducesTo_S64x784_S_d0_1 Cert.Pre_finite_inputs.Facts.h_S_ _ h0 i

/-- The kernel's one-column reshape of the argument at row `e` is the argument's entry at row `e / 784`, column
    `e % 784`: the flat row the reference's reshape to a vector reads. -/
theorem flat_rows [Cert.KernelIdeal.Facts] [Cert.ReferenceIdeal.Facts] (x : Cert.KernelIdeal.S64x784.Idx → EReal) :
    (fun e : Fin 50176 => shapeCast Cert.KernelIdeal.S50176x1 x Cert.KernelIdeal.Facts₀.shapeCasts_S64x784_S50176x1
        (ix2 e (0 : Fin 1)))
      = fun e => x (Cert.ReferenceIdeal.Table.unflat e) := by
  funext e
  have he : e.val < 50176 := e.isLt
  exact shapeCast_apply x _ (ix2 e (0 : Fin 1)) (Cert.ReferenceIdeal.Table.unflat e)
    (by rewrite [Shape.rowMajor_val_two, Shape.rowMajor_val_two]
        show e.val / 784 * 784 + e.val % 784 = e.val * 1 + 0
        omega)

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories agreeing on the intensities, both programs end at the reshaped raster of the latencies. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.KernelIdeal.Raster.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, hagree c]
  unfold Cert.ReferenceIdeal.Read.val_main_v31
  rw [Cert.ReferenceIdeal.Scattered.scattered _ (fun i => real_of_pre _ (hpre c) i), flat_rows]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
